-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S2048 .f32) (main_arg7 : FVec F S2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg7
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S16384x2 .f32) (main_arg1 : FVec F S2048x2048 .f32) (main_arg2 : FVec F S16384x2 .f32) (main_arg3 : FVec F S16384x2048 .f32) (main_arg4 : IVec S16384 32) (main_arg5 : IVec S16384x2048 32) (main_arg6 : FVec F S2048 .f32) (main_arg7 : FVec F S2048 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg6 main_arg7 main_v13 main_v16
-- ==== Kernel.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x2, .f32⟩
  | .hbm, ⟨1, _⟩ => ⟨S2048x2048, .f32⟩
  | .hbm, ⟨2, _⟩ => ⟨S16384x2, .f32⟩
  | .hbm, ⟨3, _⟩ => ⟨S16384x2048, .f32⟩
  | .hbm, ⟨4, _⟩ => ⟨S16384, .i32⟩
  | .hbm, ⟨5, _⟩ => ⟨S16384x2048, .i32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .i32 = 32 ∨ (Rect.block (s := S16384x2048) S512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

abbrev win0_0 : Pipeline.Window sig grid0 :=
  Pipeline.Window.ofSpec (Memref.whole main_arg3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2 : Shape := ⟨2, ![16384, 2]⟩
abbrev S2048x2048 : Shape := ⟨2, ![2048, 2048]⟩
abbrev S16384x2048 : Shape := ⟨2, ![16384, 2048]⟩
abbrev S16384 : Shape := ⟨1, ![16384]⟩
abbrev S2048 : Shape := ⟨1, ![2048]⟩
abbrev S1x2048 : Shape := ⟨2, ![1, 2048]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S2048x2048, .f32⟩
  | .hbm, ⟨2, _⟩ => ⟨S16384x2, .f32⟩
  | .hbm, ⟨3, _⟩ => ⟨S16384x2048, .f32⟩
  | .hbm, ⟨4, _⟩ => ⟨S16384, .i32⟩
  | .hbm, ⟨5, _⟩ => ⟨S16384x2048, .i32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .i32⟩
  | .hbm, ⟨30, _⟩ => ⟨S16384x2048, .i32⟩
  | .hbm, ⟨31, _⟩ => ⟨S16384x2048, .i1⟩
  | .hbm, ⟨32, _⟩ => ⟨S16384x2048, .i1⟩
  | .hbm, ⟨33, _⟩ => ⟨S_, .f32⟩
  | .hbm, ⟨34, _⟩ => ⟨S_, .f32⟩
  | .hbm, ⟨35, _⟩ => ⟨S16384x2048, .f32⟩
  | .hbm, ⟨36, _⟩ => ⟨S16384x2048, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)

variable [Facts₀]

class Facts : Prop extends Facts₀ where

variable [Facts]
-- ==== Proof.Spec.lean ====
/-
  Masked log-softmax of an affinely rescaled row, on the extended reals.

  For one row `xr` of 2048 entries, per-channel scale `w` and shift `b`, the entries after the affine map are
  `a k = w k · xr k + b k`. With `M = max_k a k` (the fold of `max` from `-∞`) and `S = ∑_k exp (a k - M)`, the
  log-softmax of the row at `j` is `(a j - M) - log S`; where the row's mask word at `j` is not zero the entry is
  replaced by the fill value. Every quantity depends on ONE row only, which is why cutting the array into blocks of
  whole rows changes nothing: the result array is this row function applied row by row (`result`).

  The only law used between the two programs is that `-∞` is the least extended real, so a further `max` with it
  changes nothing (`max_negInf`). It holds for every extended real: no finiteness of the inputs is needed.
-/
import Idealize.ShloMosaic.PureOps.Ideal
import Idealize.ShloMosaic.PureOps.Ideal.Laws
import Idealize.ShloMosaic.Lib.ValueIdx

noncomputable section

open scoped BigOperators

namespace Cert.MaskedLogSoftmax

open Idealize.ShloMosaic Idealize.ShloMosaic.ValueIdx

/-- The row after the per-channel affine map: scale times entry plus shift. -/
def affine (xr w b : Fin 2048 → EReal) (k : Fin 2048) : EReal := w k * xr k + b k

/-- The row's maximum: the fold of `max` over the 2048 channels, from the value of the pattern of `-∞`. -/
def rowMax (xr w b : Fin 2048 → EReal) : EReal :=
  (Finset.univ : Finset (Fin 2048)).fold max (Ideal.ofBits .f32 0xFF800000#32) (affine xr w b)

/-- The row's normaliser: the sum over the channels of the exponentials of the entries shifted by the maximum. -/
def rowExpSum (xr w b : Fin 2048 → EReal) : EReal :=
  ∑ k : Fin 2048, Ideal.exp (affine xr w b k - rowMax xr w b)

/-- The row's result at channel `j`: the fill value where the mask word is not zero, the log-softmax elsewhere. -/
def rowOut (xr : Fin 2048 → EReal) (mr : Fin 2048 → BitVec 32) (w b : Fin 2048 → EReal) (j : Fin 2048) : EReal :=
  Scalar.select (IntOp.cmpi .ne (mr j) 0#32) (Ideal.ofBits .f32 0xCCBEBC20#32)
    ((affine xr w b j - rowMax xr w b) - Ideal.log (rowExpSum xr w b))

/-- The shape of the data and result arrays, and of the two channel vectors. -/
abbrev Rows : Shape := ⟨2, ![16384, 2048]⟩
abbrev Chan : Shape := ⟨1, ![2048]⟩

/-- The result array: the row function applied to row `i 0`, read at channel `i 1`. -/
def result (x : Rows.Idx → EReal) (mask : Rows.Idx → BitVec 32) (w b : Chan.Idx → EReal) : Rows.Idx → EReal :=
  fun i => rowOut (fun k => x (ix2 (i 0) k)) (fun k => mask (ix2 (i 0) k)) (fun k => w (ix1 k)) (fun k => b (ix1 k)) (i 1)

/-- At coordinates `(r, j)` the result is row `r`'s function at `j`. -/
theorem result_apply (x : Rows.Idx → EReal) (mask : Rows.Idx → BitVec 32) (w b : Chan.Idx → EReal)
    (r : Fin 16384) (j : Fin 2048) :
    result x mask w b (ix2 r j)
      = rowOut (fun k => x (ix2 r k)) (fun k => mask (ix2 r k)) (fun k => w (ix1 k)) (fun k => b (ix1 k)) j := rfl

/-- `-∞` is the least extended real: taking the maximum with it changes nothing. -/
theorem max_negInf (y : EReal) : max (Ideal.ofBits .f32 0xFF800000#32) y = y := by
  simp [Ideal.ofBits, Ideal.ieee]

end Cert.MaskedLogSoftmax

end
-- ==== Proof.KernelRow.lean ====
/-
  What the kernel body leaves in a block is the row function of the block's rows.

  A block is 512 whole rows of the data and mask arrays together with the one-row scale and shift vectors. Over arbitrary
  block contents — mask `M`, scale row `W`, data `X`, shift row `B` — the body's affine image at `(p, k)` is
  `W (0, k) · X (p, k) + B (0, k)` (the one-row vectors are broadcast down the rows); its lane maximum at row `p` is the fold of
  `max` from `-∞` over row `p`'s entries; its lane sum of exponentials at row `p` is the sum over row `p` of the
  exponentials of the entries shifted by that maximum. So the block the body stores is, at `(p, q)`, `rowOut` of row `p` of
  the block at `q`: each row of the block is treated on its own, exactly as the specification treats each row of the array.
-/
import proofs.«119692_j27410481283764_2_alg».proof.Proof.Gen.KernelIdeal.Value
import proofs.«119692_j27410481283764_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.MaskedLogSoftmax

variable (M : Vec Ideal S512x2048 .i32) (W : Vec Ideal S1x2048 .f32) (X : Vec Ideal S512x2048 .f32) (B : Vec Ideal S1x2048 .f32)

/-! ## Layout operations of the body at coordinates -/

/-- A one-row vector broadcast down the 512 rows: at `(p, k)` it is the row at `k`. -/
theorem oneRow_apply (V : Vec Ideal S1x2048 .f32) (p : Fin 512) (k : Fin 2048) :
    broadcastTo S512x2048 (shapeCast S1x2048 V shapeCasts_S1x2048_S1x2048) broadcasts_S1x2048_S512x2048 (ix2 p k) = V (ix2 (0 : Fin 1) k) := by
  rw [shapeCast_self]
  exact broadcastTo_apply V broadcasts_S1x2048_S512x2048 (ix2 p k) (ix2 (0 : Fin 1) k) (fun a => match a with
    | ⟨0, _⟩ => by show 0 = (if (1 : Nat) = 1 then 0 else p.val); rw [if_pos rfl]
    | ⟨1, _⟩ => by show k.val = (if (2048 : Nat) = 1 then 0 else k.val); rw [if_neg (by decide)])

/-- A per-row vector made a column and broadcast along the rows: at `(p, k)` it is the vector at `p`. -/
theorem colOf_apply (v : FVec Ideal S512 .f32) (p : Fin 512) (k : Fin 2048) :
    broadcastTo S512x2048 (shapeCast S512x1 v shapeCasts_S512_S512x1) broadcasts_S512x1_S512x2048 (ix2 p k) = v (ix1 p) := by
  refine (broadcastTo_apply _ broadcasts_S512x1_S512x2048 (ix2 p k) (ix2 p (0 : Fin 1)) (fun a => match a with
    | ⟨0, _⟩ => by show p.val = (if (512 : Nat) = 1 then 0 else p.val); rw [if_neg (by decide)]
    | ⟨1, _⟩ => by show 0 = (if (1 : Nat) = 1 then 0 else k.val); rw [if_pos rfl])).trans ?_
  exact shapeCast_apply v shapeCasts_S512_S512x1 (ix2 p (0 : Fin 1)) (ix1 p)
    (by rw [Shape.rowMajor_val_one, Shape.rowMajor_val_two]; show p.val = p.val * 1 + 0; omega)

/-- The index over block row `p` with lane `k` inserted on the reduced axis is `(p, k)`. -/
theorem lift_blockRow (p : Fin 512) (k : Fin 2048) : reduces_S512x2048_S512.lift (ix1 p) k = ix2 p k := by
  funext a; apply Fin.ext
  match a with
  | ⟨0, _⟩ => rfl
  | ⟨1, _⟩ => rfl

/-! ## The body's values at coordinates -/

/-- The block's affine image, as the term stands inside the body's payload. -/
abbrev blockAffine : FVec Ideal S512x2048 .f32 :=
  addf (mulf (broadcastTo S512x2048 (shapeCast S1x2048 W shapeCasts_S1x2048_S1x2048) broadcasts_S1x2048_S512x2048) X)
    (broadcastTo S512x2048 (shapeCast S1x2048 B shapeCasts_S1x2048_S1x2048) broadcasts_S1x2048_S512x2048)

/-- At `(p, k)` it is block row `p`'s affine image at `k`. -/
theorem blockAffine_apply (p : Fin 512) (k : Fin 2048) :
    blockAffine W X B (ix2 p k) = affine (fun k => X (ix2 p k)) (fun k => W (ix2 (0 : Fin 1) k)) (fun k => B (ix2 (0 : Fin 1) k)) k := by
  unfold affine
  show (broadcastTo S512x2048 (shapeCast S1x2048 W shapeCasts_S1x2048_S1x2048) broadcasts_S1x2048_S512x2048) (ix2 p k) * X (ix2 p k)
      + (broadcastTo S512x2048 (shapeCast S1x2048 B shapeCasts_S1x2048_S1x2048) broadcasts_S1x2048_S512x2048) (ix2 p k)
    = W (ix2 (0 : Fin 1) k) * X (ix2 p k) + B (ix2 (0 : Fin 1) k)
  rw [oneRow_apply W p k, oneRow_apply B p k]

/-- The lane maximum at block row `p`: the fold of `max` from `-∞` over that row. -/
theorem blockMax_apply (p : Fin 512) :
    (multiReduction .maximumf [1] S512 (blockAffine W X B) 0xFF800000#32 reduces_S512x2048_S512 (.inl rfl) rfl) (ix1 p)
      = rowMax (fun k => X (ix2 p k)) (fun k => W (ix2 (0 : Fin 1) k)) (fun k => B (ix2 (0 : Fin 1) k)) := by
  refine (Ideal.multiReduction_maximumf_single (blockAffine W X B) 0xFF800000#32 reduces_S512x2048_S512 (.inl rfl) rfl (ix1 p)).trans ?_
  unfold rowMax
  show (Finset.univ : Finset (Fin 2048)).fold max (Ideal.ofBits .f32 0xFF800000#32)
      (fun k => blockAffine W X B (reduces_S512x2048_S512.lift (ix1 p) k)) = _
  refine Finset.fold_congr fun k _ => ?_
  rw [lift_blockRow p k]
  exact blockAffine_apply W X B p k

/-- The lane sum of exponentials at block row `p`: the sum over that row of the exponentials of the shifted entries. -/
theorem blockExpSum_apply (p : Fin 512) :
    (multiReduction .add [1] S512 (exp (subf (blockAffine W X B)
        (broadcastTo S512x2048 (shapeCast S512x1 (multiReduction .maximumf [1] S512 (blockAffine W X B) 0xFF800000#32 reduces_S512x2048_S512 (.inl rfl) rfl) shapeCasts_S512_S512x1) broadcasts_S512x1_S512x2048)))
      0x00000000#32 reduces_S512x2048_S512 (.inl rfl) rfl) (ix1 p)
      = rowExpSum (fun k => X (ix2 p k)) (fun k => W (ix2 (0 : Fin 1) k)) (fun k => B (ix2 (0 : Fin 1) k)) := by
  refine (Ideal.multiReduction_add_single _ 0x00000000#32 reduces_S512x2048_S512 (.inl rfl) rfl (ix1 p)).trans ?_
  unfold rowExpSum
  refine Finset.sum_congr rfl fun k _ => ?_
  rw [lift_blockRow p k]
  show Ideal.exp (blockAffine W X B (ix2 p k)
      - (broadcastTo S512x2048 (shapeCast S512x1 (multiReduction .maximumf [1] S512 (blockAffine W X B) 0xFF800000#32 reduces_S512x2048_S512 (.inl rfl) rfl) shapeCasts_S512_S512x1) broadcasts_S512x1_S512x2048) (ix2 p k)) = _
  rw [blockAffine_apply W X B p k, colOf_apply _ p k, blockMax_apply W X B p]

/-! ## Where a block index reads each operand -/

theorem at_self (p : Fin 512) (q : Fin 2048) : Value.ix4_0 (ix2 p q) = ix2 p q ∧ Value.ix4_2 (ix2 p q) = ix2 p q :=
  ⟨funext fun a => Fin.ext (by match a with | ⟨0, _⟩ => rfl | ⟨1, _⟩ => rfl),
   funext fun a => Fin.ext (by match a with | ⟨0, _⟩ => rfl | ⟨1, _⟩ => rfl)⟩

theorem at_row0 (p : Fin 512) (q : Fin 2048) : Value.ix4_1 (ix2 p q) = ix2 (0 : Fin 1) q ∧ Value.ix4_3 (ix2 p q) = ix2 (0 : Fin 1) q :=
  ⟨funext fun a => Fin.ext (by match a with | ⟨0, _⟩ => rfl | ⟨1, _⟩ => rfl),
   funext fun a => Fin.ext (by match a with | ⟨0, _⟩ => rfl | ⟨1, _⟩ => rfl)⟩

theorem at_rowIdx (p : Fin 512) (q : Fin 2048) : Value.ix4_4 (ix2 p q) = ix1 p ∧ Value.ix4_5 (ix2 p q) = ix1 p :=
  ⟨funext fun a => Fin.ext (by match a with | ⟨0, _⟩ => rfl),
   funext fun a => Fin.ext (by match a with | ⟨0, _⟩ => rfl)⟩

/-! ## The stored block -/

/-- The block the body's store leaves, read at `(p, q)`, is the row function of block row `p` at `q`. -/
theorem E4_apply (p : Fin 512) (q : Fin 2048) :
    Value.E4 (F := Ideal) M W X B (ix2 p q)
      = rowOut (fun k => X (ix2 p k)) (fun k => M (ix2 p k)) (fun k => W (ix2 (0 : Fin 1) k)) (fun k => B (ix2 (0 : Fin 1) k)) q := by
  unfold Value.E4
  rw [(at_self p q).1, (at_self p q).2, (at_row0 p q).1, (at_row0 p q).2, (at_rowIdx p q).1, (at_rowIdx p q).2]
  rw [blockMax_apply W X B p, blockExpSum_apply W X B p]
  rfl

theorem hz : (![0, 0] : Fin 2 → Nat) = fun _ => 0 := funext fun a => by fin_cases a <;> rfl

/-- What the body leaves in the output's staging buffer, from the four input blocks `x0` (data), `x1` (mask), `x2` (scale row),
    `x3` (shift row): at `(p, q)` the row function of row `p`. -/
theorem out_apply (x0 : Vec Ideal S512x2048 .f32) (x1 : Vec Ideal S512x2048 .i32) (x2 x3 : Vec Ideal S1x2048 .f32) (p : Fin 512) (q : Fin 2048) :
    out0_4 x0 x1 x2 x3 (ix2 p q)
      = rowOut (fun k => x0 (ix2 p k)) (fun k => x1 (ix2 p k)) (fun k => x2 (ix2 (0 : Fin 1) k)) (fun k => x3 (ix2 (0 : Fin 1) k)) q := by
  unfold out0_4
  rw [Value.canon4_eq]
  simp only [View.ld_unit_zero (S := S512x2048) hz, View.ld_unit_zero (S := S1x2048) hz]
  exact E4_apply x1 x2 x0 x3 p q

end Cert.KernelIdeal.RowValue

end
-- ==== Proof.KernelValue.lean ====
/-
  From blocks to the array: the kernel's result array is the row function applied row by row.

  The grid has 32 points; point `t` works on rows `512 t … 512 t + 511` of the data, mask and result arrays (their blocks have
  index `(t, 0)`) and on the whole one-row scale and shift vectors (block `(0, 0)` at every point): `idx_facts`, decided over
  the grid. The two one-row vectors are the channel vectors the host reshaped before the region, so at `(0, k)` they hold the
  channel vector at `k`. Hence block row `p` of point `t` is row `512 t + p` of the arrays, and what point `t` writes back — the
  row function of each block row — is block `t` of `result` of the argument arrays (`flushed_eq`). Every row `r` lies in the
  block of point `r / 512`, so the blocks cover the array (`cover`) and the result array after the run is `result`.
-/
import proofs.«119692_j27410481283764_2_alg».proof.Proof.Gen.KernelIdeal.Value
import proofs.«119692_j27410481283764_2_alg».proof.Proof.KernelRow
import proofs.«119692_j27410481283764_2_alg».proof.Proof.Spec
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.MaskedLogSoftmax
open Idealize.ShloMosaic.Pipeline (Dat)

variable (m : (ℓ : Loc nD τ sig) → Buf (Elt Ideal) ℓ) (ρ : Dev nD → PrngReg)

/-! ## The index maps over the grid -/

/-- At point `t`: the data, mask and result blocks have index `(t, 0)`, the scale and shift rows index `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := by
  have h := t.isLt
  have hN : cfg0.N = 32 := N_0
  omega

/-! ## The one-row vectors the host reshaped before the region -/

/-- The scale row as the region finds it: at `(0, k)` the first channel vector at `k`. -/
theorem scaleRow_apply (c : Dev nD) (k : Fin 2048) :
    (V m c main_v0 : S1x2048.Idx → EReal) (ix2 (0 : Fin 1) k) = (m ((c : Thread nD τ).loc main_arg6) : S2048.Idx → EReal) (ix1 k) := by
  have e : (V m c main_v0 : S1x2048.Idx → EReal)
      = shapeCast S1x2048 (m ((c : Thread nD τ).loc main_arg6) : S2048.Idx → EReal) shapeCasts_S2048_S1x2048 := by
    dsimp only [Gen.V, Gen.hostOps0]; after_results; rfl
  rw [e]
  exact shapeCast_apply _ shapeCasts_S2048_S1x2048 (ix2 (0 : Fin 1) k) (ix1 k)
    (by rw [Shape.rowMajor_val_one, Shape.rowMajor_val_two]; show k.val = 0 * 2048 + k.val; omega)

/-- The shift row as the region finds it: at `(0, k)` the second channel vector at `k`. -/
theorem shiftRow_apply (c : Dev nD) (k : Fin 2048) :
    (V m c main_v1 : S1x2048.Idx → EReal) (ix2 (0 : Fin 1) k) = (m ((c : Thread nD τ).loc main_arg7) : S2048.Idx → EReal) (ix1 k) := by
  have e : (V m c main_v1 : S1x2048.Idx → EReal)
      = shapeCast S1x2048 (m ((c : Thread nD τ).loc main_arg7) : S2048.Idx → EReal) shapeCasts_S2048_S1x2048 := by
    dsimp only [Gen.V, Gen.hostOps0]; after_results; rfl
  rw [e]
  exact shapeCast_apply _ shapeCasts_S2048_S1x2048 (ix2 (0 : Fin 1) k) (ix1 k)
    (by rw [Shape.rowMajor_val_one, Shape.rowMajor_val_two]; show k.val = 0 * 2048 + k.val; omega)

/-! ## The input blocks as rows of the arguments -/

/-- Block row `p` of the data block at point `t` is row `512 t + p` of the data array. -/
theorem dataBlk_apply (c : Dev nD) (t : Fin cfg0.N) (p : Fin 512) (k : Fin 2048) (r : Fin 16384) (hr : r.val = 512 * t.val + p.val) :
    (iblk m c 0 t : Vec Ideal S512x2048 .f32) (ix2 p k) = (m ((c : Thread nD τ).loc main_arg3) : S16384x2048.Idx → EReal) (ix2 r k) := by
  obtain ⟨e0, e1, -⟩ := idx_facts t
  unfold iblk
  rw [View.read_apply]
  show V m c main_arg3 _ = _
  rw [V_main_arg3 m c]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- Block row `p` of the mask block at point `t` is row `512 t + p` of the mask array. -/
theorem maskBlk_apply (c : Dev nD) (t : Fin cfg0.N) (p : Fin 512) (k : Fin 2048) (r : Fin 16384) (hr : r.val = 512 * t.val + p.val) :
    (iblk m c 1 t : Vec Ideal S512x2048 .i32) (ix2 p k) = (m ((c : Thread nD τ).loc main_arg5) : S16384x2048.Idx → BitVec 32) (ix2 r k) := by
  obtain ⟨-, -, e2, e3, -⟩ := idx_facts t
  unfold iblk
  rw [View.read_apply]
  show V m c main_arg5 _ = _
  rw [V_main_arg5 m c]
  refine congrArg _ (funext fun a => Fin.ext ?_)
  match a with
  | ⟨0, _⟩ => show win0_1.index t (0 : Fin 2) * 512 + 1 * p.val = r.val; rw [e2, hr]; omega
  | ⟨1, _⟩ => show win0_1.index t (1 : Fin 2) * 2048 + 1 * k.val = k.val; rw [e3]; omega

/-- The scale block at every point is the whole scale row: at `(0, k)` the first channel vector at `k`. -/
theorem scaleBlk_apply (c : Dev nD) (t : Fin cfg0.N) (k : Fin 2048) :
    (iblk m c 2 t : Vec Ideal S1x2048 .f32) (ix2 (0 : Fin 1) k) = (m ((c : Thread nD τ).loc main_arg6) : S2048.Idx → EReal) (ix1 k) := by
  obtain ⟨-, -, -, -, e4, e5, -⟩ := idx_facts t
  unfold iblk
  rw [View.read_apply]
  show (V m c main_v0 : S1x2048.Idx → EReal) _ = _
  refine Eq.trans (congrArg (V m c main_v0 : S1x2048.Idx → EReal) (funext fun a => Fin.ext ?_)) (scaleRow_apply m c k)
  match a with
  | ⟨0, _⟩ => show win0_2.index t (0 : Fin 2) * 1 + 1 * 0 = 0; rw [e4]
  | ⟨1, _⟩ => show win0_2.index t (1 : Fin 2) * 2048 + 1 * k.val = k.val; rw [e5]; omega

/-- The shift block at every point is the whole shift row: at `(0, k)` the second channel vector at `k`. -/
theorem shiftBlk_apply (c : Dev nD) (t : Fin cfg0.N) (k : Fin 2048) :
    (iblk m c 3 t : Vec Ideal S1x2048 .f32) (ix2 (0 : Fin 1) k) = (m ((c : Thread nD τ).loc main_arg7) : S2048.Idx → EReal) (ix1 k) := by
  obtain ⟨-, -, -, -, -, -, e6, e7, -⟩ := idx_facts t
  unfold iblk
  rw [View.read_apply]
  show (V m c main_v1 : S1x2048.Idx → EReal) _ = _
  refine Eq.trans (congrArg (V m c main_v1 : S1x2048.Idx → EReal) (funext fun a => Fin.ext ?_)) (shiftRow_apply m c k)
  match a with
  | ⟨0, _⟩ => show win0_3.index t (0 : Fin 2) * 1 + 1 * 0 = 0; rw [e6]
  | ⟨1, _⟩ => show win0_3.index t (1 : Fin 2) * 2048 + 1 * k.val = k.val; rw [e7]; omega

/-! ## What a point writes back, the cover, the array -/

/-- What point `t` writes back is block `t` of `result` of the argument arrays. -/
theorem flushed_eq (c : Dev nD) (t : Fin cfg0.N) :
    (dats m 0 c).flushed 4 t = ((cfg0.win 4).blk t).view.read (Elt Ideal) (result (m ((c : Thread nD τ).loc main_arg3)) (m ((c : Thread nD τ).loc main_arg5)) (m ((c : Thread nD τ).loc main_arg6)) (m ((c : Thread nD τ).loc main_arg7))) := by
  rw [Value.flushed4]
  have ht := point_lt t
  obtain ⟨-, -, -, -, -, -, -, -, e8, e9⟩ := idx_facts t
  refine funext fun (j : S512x2048.Idx) => ?_
  obtain ⟨p, q, rfl⟩ : ∃ (p : Fin 512) (q : Fin 2048), j = ix2 p q := ⟨j 0, j 1, eq_ix2 j⟩
  have hp := p.isLt
  have hemb : ((cfg0.win 4).blk t).view.emb (ix2 p q) = ix2 (⟨512 * t.val + p.val, by omega⟩ : Fin 16384) q := by
    funext a; apply Fin.ext
    match a with
    | ⟨0, _⟩ => show win0_4.index t (0 : Fin 2) * 512 + 1 * p.val = 512 * t.val + p.val; rw [e8]; omega
    | ⟨1, _⟩ => show win0_4.index t (1 : Fin 2) * 2048 + 1 * q.val = q.val; rw [e9]; omega
  show out0_4 (iblk m c 0 t) (iblk m c 1 t) (iblk m c 2 t) (iblk m c 3 t) (ix2 p q)
    = (result (m ((c : Thread nD τ).loc main_arg3)) (m ((c : Thread nD τ).loc main_arg5)) (m ((c : Thread nD τ).loc main_arg6)) (m ((c : Thread nD τ).loc main_arg7))) (((cfg0.win 4).blk t).view.emb (ix2 p q))
  rw [hemb, result_apply, RowValue.out_apply]
  congr 1
  · funext k; exact dataBlk_apply m c t p k _ rfl
  · funext k; exact maskBlk_apply m c t p k _ rfl
  · funext k; exact scaleBlk_apply m c t k
  · funext k; exact shiftBlk_apply m c t k

/-- An index of the result array is in point `t`'s block iff each coordinate is in the block's range on its axis. -/
theorem mem_blk (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v2).slice (win0_4.rect t)).set ↔ _
  rw [View.set_slice_whole, Rect.mem_set_unit]
  exact Iff.rfl

/-- Every index of the result array lies in the block of the point its row falls in. -/
theorem cover (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_4 _, ?_⟩
  obtain ⟨-, -, -, -, -, -, -, -, e8, e9⟩ := idx_facts ⟨(i 0).val / 512, by rw [hN]; omega⟩
  rw [mem_blk]
  intro a
  match a with
  | ⟨0, _⟩ =>
    show win0_4.index _ (0 : Fin 2) * 512 ≤ (i 0).val ∧ (i 0).val < win0_4.index _ (0 : Fin 2) * 512 + 512
    rw [e8]; show (i 0).val / 512 * 512 ≤ (i 0).val ∧ (i 0).val < (i 0).val / 512 * 512 + 512; omega
  | ⟨1, _⟩ =>
    show win0_4.index _ (1 : Fin 2) * 2048 ≤ (i 1).val ∧ (i 1).val < win0_4.index _ (1 : Fin 2) * 2048 + 2048
    rw [e9]; omega

/-- The result array after the run. -/
theorem final (c : Dev nD) : (dats m 0 c).arrAt 4 cfg0.N = (result (m ((c : Thread nD τ).loc main_arg3)) (m ((c : Thread nD τ).loc main_arg5)) (m ((c : Thread nD τ).loc main_arg6)) (m ((c : Thread nD τ).loc main_arg7))) :=
  (dats m 0 c).arrAt_eq_of_cover 4 _ (fun t _ => flushed_eq m c t) cover

/-- The kernel's run, read: the result array at `result` of the argument arrays, the arguments unchanged. -/
theorem run : θ_run defs (onTc (τ := τ) (main (F := Ideal))) ⟨m, fun _ => 0, ρ⟩ fun r => ∀ c : Dev nD,
      r.2.mem ((c : Thread nD τ).loc main_v2) = (result (m ((c : Thread nD τ).loc main_arg3)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefRun.lean ====
/-
  The reference program's run, read back as five named arrays.

  The reference is a straight line of 29 host operations (its two outlined functions, the row-wise log-softmax and the
  select, stand inline at their call sites). Its result is built in stages, each an array that later stages consume more
  than once:
    `affineArr`   the data array scaled by the channel vector and shifted by the other, both broadcast down the rows;
    `rowMaxArr`   per row, the maximum of `affineArr` along the row (reduced from `-∞`, then once more `max`ed with `-∞`);
    `shiftedArr`  `affineArr` minus the row's maximum broadcast back along the row;
    `logSumArr`   per row (kept as a column), the logarithm of the sum along the row of the exponentials of `shiftedArr`;
    `resultArr`   the fill value where the mask word is not zero, `shiftedArr` minus the row's `logSumArr` elsewhere.
  `run`: every weakly fair execution terminates with the result buffer at `resultArr` of the launch contents of the four
  arguments it reads, and every argument buffer as launched. The buffers' final contents are computed by unrolling the line one operation at a time; the two reductions along a row are
  kept folded while that computation is compared with the stages, since the comparison never looks inside them.
-/
import proofs.«119692_j27410481283764_2_alg».proof.Proof.Gen.ReferenceIdeal
import Idealize.ShloMosaic.Lib.StableHlo.Run
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem Idealize.ShloMosaic.StableHlo

/-! ## The stages -/

/-- Scale by the channel vector `w`, shift by `b`: both are first laid out as one row, then broadcast down the rows. -/
def affineArr (x : FVec Ideal S16384x2048 .f32) (w b : FVec Ideal S2048 .f32) : FVec Ideal S16384x2048 .f32 :=
  addf (mulf (broadcastInDim S16384x2048 ![0, 1] bcast_S1x2048_S16384x2048_0_1 (broadcastInDim S1x2048 ![1] bcast_S2048_S1x2048_1 w)) x)
    (broadcastInDim S16384x2048 ![0, 1] bcast_S1x2048_S16384x2048_0_1 (broadcastInDim S1x2048 ![1] bcast_S2048_S1x2048_1 b))

/-- Each row's maximum: the reduction along the row from `-∞`, then the maximum with `-∞` once more. -/
def rowMaxArr (x : FVec Ideal S16384x2048 .f32) (w b : FVec Ideal S2048 .f32) : FVec Ideal S16384 .f32 :=
  maximumf (broadcastInDim S16384 ![] bcast_S_S16384 (constant (F := Ideal) S_ .f32 0xFF800000#32))
    (Host.reduce (FloatOps.maximumf (F := Ideal)) (affineArr x w b) (constant (F := Ideal) S_ .f32 0xFF800000#32) reducesTo_S16384x2048_S16384_d1 h_S_)

/-- Each entry minus its row's maximum. -/
def shiftedArr (x : FVec Ideal S16384x2048 .f32) (w b : FVec Ideal S2048 .f32) : FVec Ideal S16384x2048 .f32 :=
  subf (affineArr x w b)
    (broadcastInDim S16384x2048 ![0, 1] bcast_S16384x1_S16384x2048_0_1 (broadcastInDim S16384x1 ![0] bcast_S16384_S16384x1_0 (rowMaxArr x w b)))

/-- Each row's log-normaliser, as a column. -/
def logSumArr (x : FVec Ideal S16384x2048 .f32) (w b : FVec Ideal S2048 .f32) : FVec Ideal S16384x1 .f32 :=
  Host.log (F := Ideal) (broadcastInDim S16384x1 ![0] bcast_S16384_S16384x1_0
    (Host.reduceAdd (F := Ideal) (Host.exp (F := Ideal) (shiftedArr x w b)) (constant (F := Ideal) S_ .f32 0x00000000#32) reducesTo_S16384x2048_S16384_d1 h_S_))

/-- The result: the fill value under the mask, the log-softmax elsewhere. -/
def resultArr (x : FVec Ideal S16384x2048 .f32) (mask : IVec S16384x2048 32) (w b : FVec Ideal S2048 .f32) : FVec Ideal S16384x2048 .f32 :=
  select (id (cmpi .ne mask (broadcastInDim S16384x2048 ![] bcast_S_S16384x2048 (constantI S_ 32 0#32))))
    (broadcastInDim S16384x2048 ![] bcast_S_S16384x2048 (id (constant (F := Ideal) S_ .f32 0xCCBEBC20#32)))
    (subf (shiftedArr x w b) (broadcastInDim S16384x2048 ![0, 1] bcast_S16384x1_S16384x2048_0_1 (logSumArr x w b)))

/-! ## The program as its list of operations -/

/-- Contents of a float array of shape `S`, and of a word or condition array, at the extended reals. -/
abbrev Fa (S : Shape) : Type := (⟨S, .f32⟩ : BufTy).Contents (Elt Ideal)
abbrev Wa (S : Shape) : Type := (⟨S, .i32⟩ : BufTy).Contents (Elt Ideal)
abbrev Ca (S : Shape) : Type := (⟨S, .i1⟩ : BufTy).Contents (Elt Ideal)

/-- The 29 operations in program order. The fifteen of the row-wise log-softmax are written over its call's buffer
    record `main_call0` with the affine array's buffer as argument, the three of the select over `main_call1`: each a typed
    reference to a literal buffer. -/
abbrev ops : List (HloOp τ sig (Elt Ideal)) :=
  [ unary main_arg6 main_v0 (broadcastInDim S1x2048 ![1] bcast_S2048_S1x2048_1 : Fa S2048 → Fa S1x2048),
    unary main_v0 main_v1 (broadcastInDim S16384x2048 ![0, 1] bcast_S1x2048_S16384x2048_0_1 : Fa S1x2048 → Fa S16384x2048),
    binary main_v1 main_arg3 main_v2 (mulf (F := Ideal) (φ := .f32) : Fa S16384x2048 → Fa S16384x2048 → Fa S16384x2048),
    unary main_arg7 main_v3 (broadcastInDim S1x2048 ![1] bcast_S2048_S1x2048_1 : Fa S2048 → Fa S1x2048),
    unary main_v3 main_v4 (broadcastInDim S16384x2048 ![0, 1] bcast_S1x2048_S16384x2048_0_1 : Fa S1x2048 → Fa S16384x2048),
    binary main_v2 main_v4 main_v5 (addf (F := Ideal) (φ := .f32) : Fa S16384x2048 → Fa S16384x2048 → Fa S16384x2048),
    TRef.nullary main_call0.cst (constant (F := Ideal) S_ .f32 0xFF800000#32),
    TRef.binary (TRef.of (T := ⟨S16384x2048, .f32⟩) main_v5) main_call0.cst main_call0.v0 (fun x v => Host.reduce (FloatOps.maximumf (F := Ideal) (φ := .f32)) x v reducesTo_S16384x2048_S16384_d1 h_S_),
    TRef.nullary main_call0.cst_0 (constant (F := Ideal) S_ .f32 0xFF800000#32),
    TRef.unary main_call0.cst_0 main_call0.v1 (broadcastInDim S16384 ![] bcast_S_S16384),
    TRef.binary main_call0.v1 main_call0.v0 main_call0.v2 (maximumf (F := Ideal) (φ := .f32)),
    TRef.unary main_call0.v2 main_call0.v3 (broadcastInDim S16384x1 ![0] bcast_S16384_S16384x1_0),
    TRef.unary main_call0.v3 main_call0.v4 (broadcastInDim S16384x2048 ![0, 1] bcast_S16384x1_S16384x2048_0_1),
    TRef.binary (TRef.of (T := ⟨S16384x2048, .f32⟩) main_v5) main_call0.v4 main_call0.v5 (subf (F := Ideal) (φ := .f32)),
    TRef.unary main_call0.v5 main_call0.v6 (Host.exp (F := Ideal) (φ := .f32)),
    TRef.nullary main_call0.cst_1 (constant (F := Ideal) S_ .f32 0x00000000#32),
    TRef.binary main_call0.v6 main_call0.cst_1 main_call0.v7 (fun x v => Host.reduceAdd (F := Ideal) (φ := .f32) x v reducesTo_S16384x2048_S16384_d1 h_S_),
    TRef.unary main_call0.v7 main_call0.v8 (broadcastInDim S16384x1 ![0] bcast_S16384_S16384x1_0),
    TRef.unary main_call0.v8 main_call0.v9 (Host.log (F := Ideal) (φ := .f32)),
    TRef.unary main_call0.v9 main_call0.v10 (broadcastInDim S16384x2048 ![0, 1] bcast_S16384x1_S16384x2048_0_1),
    TRef.binary main_call0.v5 main_call0.v10 main_call0.v11 (subf (F := Ideal) (φ := .f32)),
    nullary main_c (constantI S_ 32 0#32 : Wa S_),
    unary main_c main_v7 (broadcastInDim S16384x2048 ![] bcast_S_S16384x2048 : Wa S_ → Wa S16384x2048),
    binary main_arg5 main_v7 main_v8 (cmpi .ne : Wa S16384x2048 → Wa S16384x2048 → Ca S16384x2048),
    unary main_v8 main_v9 (id : Ca S16384x2048 → Ca S16384x2048),
    nullary main_cst (constant (F := Ideal) S_ .f32 0xCCBEBC20#32 : Fa S_),
    TRef.unary (TRef.of (T := ⟨S_, .f32⟩) main_cst) main_call1.v0 id,
    TRef.unary main_call1.v0 main_call1.v1 (broadcastInDim S16384x2048 ![] bcast_S_S16384x2048),
    TRef.ternary (TRef.of (T := ⟨S16384x2048, .i1⟩) main_v9) main_call1.v1 (TRef.of (T := ⟨S16384x2048, .f32⟩) main_v6) main_call1.v2 select ]

/-- The program is that line: its two functions' bodies unfolded at their calls, where each typed reference is the literal
    buffer it names. -/
theorem main_eq (c : Dev nD) : main (F := Ideal) c = seq ops := rfl

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt Ideal))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-! ## The result buffer after the line -/

/-- Moving a value along an equation between a type and itself changes nothing. (Stated as a rewriting step of its own, so
    that removing such a move from a large term is a local step and not a comparison of the whole term with itself.) -/
theorem cast_self {α : Type} (h : α = α) (v : α) : cast h v = v := eq_of_heq (cast_heq h v)

attribute [local irreducible] Host.reduce Host.reduceAdd in
set_option maxHeartbeats 1000000 in
/-- From any contents `V`, after the 29 operations the result buffer holds `resultArr` of what `V` has at the four argument
    buffers the program reads: the line unrolled, each operation's result read at its own buffer and passed over at every
    other. A function's line moves contents to its buffer's type and back; at these literal buffers the buffer's type is that
    type, so both moves are the identity and are removed. What is left is the stages, unfolded. The reductions along a row are kept folded:
    they are folds over the 2048 entries of each of 16384 rows, and the equation holds without opening them. -/
theorem result_eq (V : Valuation τ sig (Elt Ideal)) :
    after ops V (Proc.devRef .tc main_v10)
      = resultArr (V (Proc.devRef .tc main_arg3)) (V (Proc.devRef .tc main_arg5)) (V (Proc.devRef .tc main_arg6)) (V (Proc.devRef .tc main_arg7)) := by
  after_results_simp
  simp only [cast_self]
  unfold resultArr logSumArr shiftedArr rowMaxArr affineArr
  rfl

/-! ## The run -/

set_option maxHeartbeats 2000000 in
/-- From any memory with zero counters, every weakly fair execution of the program terminates with the result buffer at
    `resultArr` of the arguments' launch contents and every argument buffer as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = resultArr (m ((c.tc : Thread nD τ).loc main_arg3)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v10).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Stages

end
-- ==== Proof.RefValue.lean ====
/-
  The reference computes the row function: `resultArr = MaskedLogSoftmax.result`, index by index.

  Each stage of the reference's run is read at coordinates `(r, k)`: row `r`, channel `k`.
  A channel vector laid out as one row and broadcast down the rows reads the vector at `k` (`chanBcast_apply`); a per-row
  vector turned into a column and broadcast along the rows reads the vector at `r` (`colBcast_apply`, `rowBcast_apply`).
  So the affine array at `(r, k)` is `w k · x (r, k) + b k`. The reduction along a row is the fold of `max`, from `-∞`, over
  the row's 2048 entries, in any order; the further `max` with `-∞` changes nothing because `-∞` is the least extended
  real: the row's maximum is `rowMax` of row `r`. The host's sum along the row from zero is the sum over the row's entries.
  Put together, the result at `(r, j)` is `rowOut` of row `r` at `j`.
-/
import proofs.«119692_j27410481283764_2_alg».proof.Proof.RefRun
import proofs.«119692_j27410481283764_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Gen Idealize.ShloMosaic Idealize.ShloMosaic.ValueIdx Cert.MaskedLogSoftmax

/-! ## The layout operations at coordinates -/

/-- A channel vector as one row, broadcast down the rows: at `(r, k)` it is the vector at `k`. -/
theorem chanBcast_apply (v : FVec Ideal S2048 .f32) (r : Fin 16384) (k : Fin 2048) :
    broadcastInDim S16384x2048 ![0, 1] bcast_S1x2048_S16384x2048_0_1 (broadcastInDim S1x2048 ![1] bcast_S2048_S1x2048_1 v) (ix2 r k) = v (ix1 k) :=
  (broadcastInDim_apply _ bcast_S1x2048_S16384x2048_0_1 _ (ix2 r k) (ix2 (0 : Fin 1) k) (fun a => match a with
      | ⟨0, _⟩ => by show 0 = if (1 : Nat) = 1 then 0 else r.val; rw [if_pos rfl]
      | ⟨1, _⟩ => by show k.val = if (2048 : Nat) = 1 then 0 else k.val; rw [if_neg (by decide)])).trans
    (broadcastInDim_apply _ bcast_S2048_S1x2048_1 v (ix2 (0 : Fin 1) k) (ix1 k) (fun a => match a with
      | ⟨0, _⟩ => by show k.val = if (2048 : Nat) = 1 then 0 else k.val; rw [if_neg (by decide)]))

/-- A column broadcast along the rows: at `(r, k)` it is the column at `r`. -/
theorem colBcast_apply (v : FVec Ideal S16384x1 .f32) (r : Fin 16384) (k : Fin 2048) :
    broadcastInDim S16384x2048 ![0, 1] bcast_S16384x1_S16384x2048_0_1 v (ix2 r k) = v (ix2 r (0 : Fin 1)) :=
  broadcastInDim_apply _ bcast_S16384x1_S16384x2048_0_1 v (ix2 r k) (ix2 r (0 : Fin 1)) (fun a => match a with
    | ⟨0, _⟩ => by show r.val = if (16384 : Nat) = 1 then 0 else r.val; rw [if_neg (by decide)]
    | ⟨1, _⟩ => by show 0 = if (1 : Nat) = 1 then 0 else k.val; rw [if_pos rfl])

/-- A per-row vector as a column: at `(r, 0)` it is the vector at `r`. -/
theorem toCol_apply (v : FVec Ideal S16384 .f32) (r : Fin 16384) :
    broadcastInDim S16384x1 ![0] bcast_S16384_S16384x1_0 v (ix2 r (0 : Fin 1)) = v (ix1 r) :=
  broadcastInDim_apply _ bcast_S16384_S16384x1_0 v (ix2 r (0 : Fin 1)) (ix1 r) (fun a => match a with
    | ⟨0, _⟩ => by show r.val = if (16384 : Nat) = 1 then 0 else r.val; rw [if_neg (by decide)])

/-- A per-row vector as a column, broadcast along the rows: at `(r, k)` it is the vector at `r`. -/
theorem rowBcast_apply (v : FVec Ideal S16384 .f32) (r : Fin 16384) (k : Fin 2048) :
    broadcastInDim S16384x2048 ![0, 1] bcast_S16384x1_S16384x2048_0_1 (broadcastInDim S16384x1 ![0] bcast_S16384_S16384x1_0 v) (ix2 r k) = v (ix1 r) :=
  (colBcast_apply _ r k).trans (toCol_apply v r)

/-- The index over row `r` with channel `k` inserted on the reduced axis is `(r, k)`. -/
theorem lift_row (hR : S16384x2048.Reduces [1] S16384) (r : Fin 16384) (k : Fin 2048) : hR.lift (ix1 r) k = ix2 r k := by
  funext a; apply Fin.ext
  match a with
  | ⟨0, _⟩ => rfl
  | ⟨1, _⟩ => rfl

/-! ## The host operations at an index, over any vector -/

/-- The host's logarithm and exponential are taken entry by entry. -/
theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The host's maximum along a row from `-∞`, at row `r`: the fold of `max` over the row's entries, in any order. -/
theorem hostRowMax_apply (y : FVec Ideal S16384x2048 .f32) (r : Fin 16384) :
    Host.reduce (FloatOps.maximumf (F := Ideal) (φ := .f32)) y (constant (F := Ideal) S_ .f32 0xFF800000#32) reducesTo_S16384x2048_S16384_d1 h_S_ (ix1 r)
      = (Finset.univ : Finset (Fin 2048)).fold max (Ideal.ofBits .f32 0xFF800000#32) (fun k => y (ix2 r k)) := by
  have hR : S16384x2048.Reduces [1] S16384 := by decide
  refine (Host.reduce_eq_fold_single (FloatOps.maximumf (F := Ideal) (φ := .f32)) y (constant (F := Ideal) S_ .f32 0xFF800000#32)
    reducesTo_S16384x2048_S16384_d1 hR h_S_ (ix1 r)).trans ?_
  show (Finset.univ : Finset (Fin 2048)).fold max (Ideal.ofBits .f32 0xFF800000#32) (fun k => y (hR.lift (ix1 r) k)) = _
  exact Finset.fold_congr fun k _ => congrArg y (lift_row hR r k)

/-! ## The stages at coordinates -/

/-- The affine array at `(r, k)` is row `r`'s affine image at `k`. -/
theorem affineArr_apply (x : FVec Ideal S16384x2048 .f32) (w b : FVec Ideal S2048 .f32) (r : Fin 16384) (k : Fin 2048) :
    affineArr x w b (ix2 r k) = affine (fun k => x (ix2 r k)) (fun k => w (ix1 k)) (fun k => b (ix1 k)) k := by
  unfold affineArr affine
  show (broadcastInDim S16384x2048 ![0, 1] bcast_S1x2048_S16384x2048_0_1 (broadcastInDim S1x2048 ![1] bcast_S2048_S1x2048_1 w)) (ix2 r k) * x (ix2 r k)
      + (broadcastInDim S16384x2048 ![0, 1] bcast_S1x2048_S16384x2048_0_1 (broadcastInDim S1x2048 ![1] bcast_S2048_S1x2048_1 b)) (ix2 r k)
    = w (ix1 k) * x (ix2 r k) + b (ix1 k)
  rw [chanBcast_apply w r k, chanBcast_apply b r k]

/-- Row `r`'s entry of the maximum is the fold of `max` over the row: the reduction in any order, and `-∞` absorbed. -/
theorem rowMaxArr_apply (x : FVec Ideal S16384x2048 .f32) (w b : FVec Ideal S2048 .f32) (r : Fin 16384) :
    rowMaxArr x w b (ix1 r) = rowMax (fun k => x (ix2 r k)) (fun k => w (ix1 k)) (fun k => b (ix1 k)) := by
  have e0 : broadcastInDim S16384 ![] bcast_S_S16384 (constant (F := Ideal) S_ .f32 0xFF800000#32) (ix1 r) = Ideal.ofBits .f32 0xFF800000#32 :=
    broadcastInDim_apply _ bcast_S_S16384 _ (ix1 r) ix0 (fun a => a.elim0)
  unfold rowMaxArr
  rw [maximumf_apply, e0, max_negInf, hostRowMax_apply (affineArr x w b) r]
  unfold rowMax
  exact Finset.fold_congr fun k _ => affineArr_apply x w b r k

/-- The shifted array at `(r, k)`: the affine image minus the row's maximum. -/
theorem shiftedArr_apply (x : FVec Ideal S16384x2048 .f32) (w b : FVec Ideal S2048 .f32) (r : Fin 16384) (k : Fin 2048) :
    shiftedArr x w b (ix2 r k) = affine (fun k => x (ix2 r k)) (fun k => w (ix1 k)) (fun k => b (ix1 k)) k
      - rowMax (fun k => x (ix2 r k)) (fun k => w (ix1 k)) (fun k => b (ix1 k)) := by
  unfold shiftedArr
  rw [subf_apply, affineArr_apply x w b r k, rowBcast_apply (rowMaxArr x w b) r k, rowMaxArr_apply x w b r]

/-- The host's sum along a row from zero, at row `r`: the sum over the row's entries. -/
theorem rowSum_apply (y : FVec Ideal S16384x2048 .f32) (r : Fin 16384) :
    Host.reduceAdd (F := Ideal) y (constant (F := Ideal) S_ .f32 0x00000000#32) reducesTo_S16384x2048_S16384_d1 h_S_ (ix1 r)
      = ∑ k : Fin 2048, y (ix2 r k) := by
  have hR : S16384x2048.Reduces [1] S16384 := by decide
  simp only [Host.reduceAdd, Ideal.hostReduceAdd_def]
  rw [Ideal.hostReduceAdd_single reducesTo_S16384x2048_S16384_d1 hR]
  show Ideal.ofBits .f32 0x00000000#32 + _ = _
  rw [Ideal.ofBits_zero_f32, zero_add]
  exact Finset.sum_congr rfl fun k _ => congrArg y (lift_row hR r k)

/-- The log-normaliser column at `(r, 0)`: the logarithm of row `r`'s sum of exponentials. -/
theorem logSumArr_apply (x : FVec Ideal S16384x2048 .f32) (w b : FVec Ideal S2048 .f32) (r : Fin 16384) :
    logSumArr x w b (ix2 r (0 : Fin 1)) = Ideal.log (rowExpSum (fun k => x (ix2 r k)) (fun k => w (ix1 k)) (fun k => b (ix1 k))) := by
  unfold logSumArr rowExpSum
  rw [hostLog_apply, toCol_apply _ r, rowSum_apply _ r]
  refine congrArg Ideal.log (Finset.sum_congr rfl fun k _ => ?_)
  rw [hostExp_apply, shiftedArr_apply x w b r k]

/-- The result at `(r, j)` is row `r`'s function at `j`. -/
theorem resultArr_apply (x : FVec Ideal S16384x2048 .f32) (mask : IVec S16384x2048 32) (w b : FVec Ideal S2048 .f32) (r : Fin 16384) (j : Fin 2048) :
    resultArr x mask w b (ix2 r j) = rowOut (fun k => x (ix2 r k)) (fun k => mask (ix2 r k)) (fun k => w (ix1 k)) (fun k => b (ix1 k)) j := by
  have ez : broadcastInDim S16384x2048 ![] bcast_S_S16384x2048 (constantI S_ 32 0#32) (ix2 r j) = 0#32 :=
    broadcastInDim_apply _ bcast_S_S16384x2048 _ (ix2 r j) ix0 (fun a => a.elim0)
  have ef : broadcastInDim S16384x2048 ![] bcast_S_S16384x2048 (id (constant (F := Ideal) S_ .f32 0xCCBEBC20#32)) (ix2 r j) = Ideal.ofBits .f32 0xCCBEBC20#32 :=
    broadcastInDim_apply _ bcast_S_S16384x2048 _ (ix2 r j) ix0 (fun a => a.elim0)
  unfold resultArr rowOut
  show Scalar.select (IntOp.cmpi .ne (mask (ix2 r j)) (broadcastInDim S16384x2048 ![] bcast_S_S16384x2048 (constantI S_ 32 0#32) (ix2 r j)))
      (broadcastInDim S16384x2048 ![] bcast_S_S16384x2048 (id (constant (F := Ideal) S_ .f32 0xCCBEBC20#32)) (ix2 r j))
      (shiftedArr x w b (ix2 r j) - (broadcastInDim S16384x2048 ![0, 1] bcast_S16384x1_S16384x2048_0_1 (logSumArr x w b)) (ix2 r j)) = _
  rw [ez, ef, shiftedArr_apply x w b r j, colBcast_apply (logSumArr x w b) r j, logSumArr_apply x w b r]

/-- The reference's result array is the row function applied row by row. -/
theorem resultArr_eq (x : FVec Ideal S16384x2048 .f32) (mask : IVec S16384x2048 32) (w b : FVec Ideal S2048 .f32) :
    resultArr x mask w b = result x mask w b := by
  funext i
  obtain ⟨r, j, rfl⟩ : ∃ (r : Fin 16384) (j : Fin 2048), i = ix2 r j := ⟨i 0, i 1, eq_ix2 i⟩
  exact (resultArr_apply x mask w b r j).trans (result_apply x mask w b r j).symm

end Cert.ReferenceIdeal.Stages

end
-- ==== Proof.lean ====
/- The kernel and its reference compute the same masked log-softmax, on the extended reals.

   Both programs take a data array of 16384 rows by 2048 channels, a mask of the same shape and two channel vectors
   (scale `w`, shift `b`). Each row `x` is first mapped to `a k = w k · x k + b k`; then, with `M = max_k a k` and
   `S = ∑_k exp (a k - M)`, the row's entry at `j` is `(a j - M) - log S`, replaced by a fixed fill value where the mask
   word is not zero (Proof/Spec.lean: `rowOut`, and `result`, the array obtained row by row).

   The kernel walks the array in 32 blocks of 512 whole rows. Every quantity above depends on one row only, so what a
   point leaves in its block is the row function of that block's rows (Proof/KernelRow.lean), a block's rows are rows of the
   arrays, and the blocks tile the array: the kernel's result array is `result` (Proof/KernelValue.lean).
   The reference is a straight line of host operations (Proof/RefRun.lean) whose result, read stage by stage at an index,
   is the same `result` (Proof/RefValue.lean). It differs from the kernel's text in one step only: after reducing each row
   from `-∞` it takes the maximum with `-∞` once more, which changes nothing because `-∞` is the least extended real.
   The two lane reductions are folds over a row, in any order, on both sides. No step uses that the inputs are finite.

   The three frame claims: the kernel's two by their generated frames, the reference's by its run with the result
   dropped. The idealization rewrote no operation, so there is nothing to preserve beyond `True`. -/
import proofs.«119692_j27410481283764_2_alg».proof.Defs
import proofs.«119692_j27410481283764_2_alg».proof.Proof.Gen.Kernel
import proofs.«119692_j27410481283764_2_alg».proof.Proof.Gen.Kernel.Skeleton
import proofs.«119692_j27410481283764_2_alg».proof.Proof.Gen.Kernel.Launch
import proofs.«119692_j27410481283764_2_alg».proof.Proof.Gen.Kernel.Points
import proofs.«119692_j27410481283764_2_alg».proof.Proof.Gen.Kernel.Frame
import proofs.«119692_j27410481283764_2_alg».proof.Proof.Gen.KernelIdeal
import proofs.«119692_j27410481283764_2_alg».proof.Proof.Gen.KernelIdeal.Skeleton
import proofs.«119692_j27410481283764_2_alg».proof.Proof.Gen.KernelIdeal.Launch
import proofs.«119692_j27410481283764_2_alg».proof.Proof.Gen.KernelIdeal.Points
import proofs.«119692_j27410481283764_2_alg».proof.Proof.Gen.KernelIdeal.Frame
import proofs.«119692_j27410481283764_2_alg».proof.Proof.Gen.ReferenceIdeal
import proofs.«119692_j27410481283764_2_alg».proof.Proof.Gen.Pre_finite_inputs
import proofs.«119692_j27410481283764_2_alg».proof.Proof.Gen.KernelIdeal.Value
import proofs.«119692_j27410481283764_2_alg».proof.Proof.Spec
import proofs.«119692_j27410481283764_2_alg».proof.Proof.KernelRow
import proofs.«119692_j27410481283764_2_alg».proof.Proof.KernelValue
import proofs.«119692_j27410481283764_2_alg».proof.Proof.RefRun
import proofs.«119692_j27410481283764_2_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Stages.run m ρ)

/-- The idealization rewrote nothing. -/
theorem preserves : Cert.preserves_Kernel_KernelIdeal := trivial

/-- From memories agreeing on the arguments, both programs end with the result array at `result` of the data, mask, scale
    and shift arrays: the kernel block by block, the reference stage by stage. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Stages.run m' ρ')
  obtain ⟨-, -, -, e3, -, e5, e6, e7⟩ := hagree c
  rw [e3, e5, e6, e7]
  exact Cert.ReferenceIdeal.Stages.resultArr_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
